-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x8192 : Shape := ⟨3, ![4, 3, 8192]⟩
abbrev S_ : Shape := ⟨0, ![]⟩

class Facts : Prop where
  bcast_S_S4x3x8192 : S_.BroadcastsInDim S4x3x8192 (![] : Fin 0 → Fin S4x3x8192.rank)
  reducesTo_S4x3x8192_S_d0_1_2 : S4x3x8192.ReducesTo [0, 1, 2] S_
  h_S_ : 0 < S_.numel

variable [Facts]

def fn {F : FTy → Type} [FloatOps F] (main_arg0 : FVec F S4x3x8192 .f32) (main_arg1 : FVec F S4x3x8192 .f32) : IVec S_ 1 :=
  let main_v0 : FVec F S4x3x8192 .f32 := Host.absf main_arg0
  let main_cst : FVec F S_ .f32 := constant S_ .f32 0x7F800000#32
  let main_v1 : FVec F S4x3x8192 .f32 := broadcastInDim S4x3x8192 ![] bcast_S_S4x3x8192 main_cst
  let main_v2 : IVec S4x3x8192 1 := cmpf .olt main_v0 main_v1
  let main_c : IVec S_ 1 := constantI S_ 1 1#1
  let main_v3 : IVec S_ 1 := (fun x v => Host.reduce IntOp.andi x v reducesTo_S4x3x8192_S_d0_1_2 h_S_) main_v2 main_c
  let main_v4 : FVec F S4x3x8192 .f32 := Host.absf main_arg1
  let main_cst_0 : FVec F S_ .f32 := constant S_ .f32 0x7F800000#32
  let main_v5 : FVec F S4x3x8192 .f32 := broadcastInDim S4x3x8192 ![] bcast_S_S4x3x8192 main_cst_0
  let main_v6 : IVec S4x3x8192 1 := cmpf .olt main_v4 main_v5
  let main_c_1 : IVec S_ 1 := constantI S_ 1 1#1
  let main_v7 : IVec S_ 1 := (fun x v => Host.reduce IntOp.andi x v reducesTo_S4x3x8192_S_d0_1_2 h_S_) main_v6 main_c_1
  let main_v8 : IVec S_ 1 := andi main_v3 main_v7
  main_v8
-- ==== Kernel.lean ====
abbrev S4x3x8192 : Shape := ⟨3, ![4, 3, 8192]⟩
abbrev S4x1x8192 : Shape := ⟨3, ![4, 1, 8192]⟩
abbrev S1x3x256 : Shape := ⟨3, ![1, 3, 256]⟩
abbrev S1x3x8192 : Shape := ⟨3, ![1, 3, 8192]⟩
abbrev S1x1x256 : Shape := ⟨3, ![1, 1, 256]⟩
abbrev S1x1x8192 : Shape := ⟨3, ![1, 1, 8192]⟩
abbrev S1x8192 : Shape := ⟨2, ![1, 8192]⟩
abbrev S3x256 : Shape := ⟨2, ![3, 256]⟩
abbrev S3x8192 : Shape := ⟨2, ![3, 8192]⟩
abbrev S256x3 : Shape := ⟨2, ![256, 3]⟩
abbrev S256x8192 : Shape := ⟨2, ![256, 8192]⟩
abbrev S256 : Shape := ⟨1, ![256]⟩
abbrev S256x1 : Shape := ⟨2, ![256, 1]⟩
abbrev S8192 : Shape := ⟨1, ![8192]⟩
abbrev S4x8192 : Shape := ⟨2, ![4, 8192]⟩
abbrev S_ : Shape := ⟨0, ![]⟩

abbrev nBuf : Space → Nat
  | .hbm => 15
  | .vmem => 9
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x1x8192, .f32⟩
  | .hbm, ⟨3, _⟩ => ⟨S4x1x8192, .f32⟩
  | .hbm, ⟨4, _⟩ => ⟨S4x8192, .f32⟩
  | .hbm, ⟨5, _⟩ => ⟨S4x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x3x256, .f32⟩
  | .local _ .vmem, ⟨1, _⟩ => ⟨S1x3x256, .f32⟩
  | .local _ .vmem, ⟨2, _⟩ => ⟨S1x3x8192, .f32⟩
  | .local _ .vmem, ⟨3, _⟩ => ⟨S1x3x8192, .f32⟩
  | .local _ .vmem, ⟨4, _⟩ => ⟨S1x1x256, .f32⟩
  | .local _ .vmem, ⟨5, _⟩ => ⟨S1x1x256, .f32⟩
  | .local _ .vmem, ⟨6, _⟩ => ⟨S1x1x8192, .f32⟩
  | .local _ .vmem, ⟨7, _⟩ => ⟨S1x1x8192, .f32⟩
  | .local _ .vmem, ⟨8, _⟩ => ⟨S1x8192, .f32⟩
  | _, _ => ⟨S4x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v35 : BitVec 1 := Scalar.cmpi .eq arg1 c31_i32
  let v36 : BitVec 32 := Scalar.extui v35
  let c0_i32_19 : BitVec 32 := 0#32
  let v37 : BitVec 1 := Scalar.cmpi .ne v36 c0_i32_19
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x3x256_S1x3x256_0_0_0 : ∀ a, (![0, 0, 0] : Fin 3 → Nat) a + S1x3x256.size a ≤ S1x3x256.size a
  h_S1x3x256 : 0 < S1x3x256.numel
  shapeCasts_S1x3x256_S3x256 : S1x3x256.ShapeCasts S3x256
  inb_S1x3x8192_S1x3x8192_0_0_0 : ∀ a, (![0, 0, 0] : Fin 3 → Nat) a + S1x3x8192.size a ≤ S1x3x8192.size a
  h_S1x3x8192 : 0 < S1x3x8192.numel
  shapeCasts_S1x3x8192_S3x8192 : S1x3x8192.ShapeCasts S3x8192
  transposes_S3x256_p1_0_S256x3 : S3x256.Transposes [1, 0] S256x3
  reduces_S3x256_S256 : S3x256.Reduces [0] S256
  shapeCasts_S256_S256x1 : S256.ShapeCasts S256x1
  reduces_S3x8192_S8192 : S3x8192.Reduces [0] S8192
  shapeCasts_S8192_S1x8192 : S8192.ShapeCasts S1x8192
  broadcasts_S256x1_S256x8192 : S256x1.Broadcasts S256x8192
  broadcasts_S1x8192_S256x8192 : S1x8192.Broadcasts S256x8192
  reduces_S256x8192_S256 : S256x8192.Reduces [1] S256
  reduces_S256x8192_S8192 : S256x8192.Reduces [0] S8192
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S256_S1x1x256 : S256.ShapeCasts S1x1x256
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  shapeCasts_S1x8192_S8192 : S1x8192.ShapeCasts S8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S8192 : S1x1x8192.ShapeCasts S8192
  shapeCasts_S8192_S1x1x8192 : S8192.ShapeCasts S1x1x8192
  shapeCasts_S4x1x8192_S4x8192 : S4x1x8192.ShapeCasts S4x8192
  reducesTo_S4x8192_S_d0_1 : S4x8192.ReducesTo [0, 1] S_
  h_S_ : 0 < S_.numel
  dot_S256x3_S3x8192_S256x8192_1_0_0_1_n_n_wf : DotDims.WF S256x3 S3x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256.size a ≤ S4x3x8192.size a
  hwx0_0 : ∀ i : grid0.Coords, EltTy.bits .f32 = 32 ∨ (Rect.block (s := S4x3x8192) S1x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8192.size a ≤ S4x3x8192.size a
  hwx0_1 : ∀ i : grid0.Coords, EltTy.bits .f32 = 32 ∨ (Rect.block (s := S4x3x8192) S1x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S4x1x8192.size a
  hwx0_2 : ∀ i : grid0.Coords, EltTy.bits .f32 = 32 ∨ (Rect.block (s := S4x1x8192) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S256x3_S3x8192_S256x8192_1_0_0_1_n_n : DotDims S256x3 S3x8192 S256x8192 where
  lhsContracting := [1]
  rhsContracting := [0]
  lhsNonContracting := [0]
  rhsNonContracting := [1]
  lhsBatch := []
  rhsBatch := []
  wf := dot_S256x3_S3x8192_S256x8192_1_0_0_1_n_n_wf

abbrev win0_0 : Pipeline.Window sig grid0 :=
  Pipeline.Window.ofSpec (Memref.whole main_arg0) S1x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x3x8192 : Shape := ⟨3, ![4, 3, 8192]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x3x8192, .f32⟩
  | .hbm, ⟨3, _⟩ => ⟨S_, .f32⟩
  | .hbm, ⟨4, _⟩ => ⟨S4x8192, .f32⟩
  | .hbm, ⟨5, _⟩ => ⟨S4x3x8192, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S4x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S4x3x8192_S4x8192_d1 : S4x3x8192.ReducesTo [1] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d1 : S4x8192x8192.ReducesTo [1] S4x8192
  reducesTo_S4x8192x8192_S4x8192_d2 : S4x8192x8192.ReducesTo [2] S4x8192
  reducesTo_S4x8192_S_d0_1 : S4x8192.ReducesTo [0, 1] S_
  dot_S4x3x8192_S4x3x8192_S4x8192x8192_1_1_2_2_0_0_wf : DotDims.WF S4x3x8192 S4x3x8192 S4x8192x8192 [1] [1] [2] [2] [0] [0]

variable [Facts₀]

def dot_S4x3x8192_S4x3x8192_S4x8192x8192_1_1_2_2_0_0 : DotDims S4x3x8192 S4x3x8192 S4x8192x8192 where
  lhsContracting := [1]
  rhsContracting := [1]
  lhsNonContracting := [2]
  rhsNonContracting := [2]
  lhsBatch := [0]
  rhsBatch := [0]
  wf := dot_S4x3x8192_S4x3x8192_S4x8192x8192_1_1_2_2_0_0_wf

class Facts : Prop extends Facts₀ where

variable [Facts]
-- ==== Proof.Pieces.lean ====
/-
  What each control case of the kernel body leaves behind, as values.  The body has three cases along the tile
  axis: the first tile of a batch (A), a middle tile (B), the last tile (C).  In every case the per-prediction
  output block is stored once, whole, from the two input blocks.  The scratch row is a running minimum carried
  from tile to tile: reset to the top element at the first tile, then lowered by the tile's column minima; at the
  last tile the per-ground-truth output is stored from the scratch just written.  Each statement below says that
  the contents a case leaves in a buffer are the corresponding pure term of the body's arithmetic applied to the
  case's inputs; all of them hold at any float instance.
-/
import proofs.«157189_j26259430047859_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer access, rank 3 and rank 2. -/
theorem hz3 : (![0, 0, 0] : Fin 3 → Nat) = fun _ => 0 := funext fun a => by fin_cases a <;> rfl
theorem hz2 : (![0, 0] : Fin 2 → Nat) = fun _ => 0 := funext fun a => by fin_cases a <;> rfl

/-! ## The per-prediction output: stored at every point, from the two input blocks alone -/

/-- Case A: the one store into the per-prediction output leaves the payload of the two input blocks. -/
theorem out_A_2 (c : Dev nD) (i : grid0.Coords) (a2 : Memref sig .tc .vmem S1x3x256 .f32) (h2 : a2.IsWhole) (a3 : Memref sig .tc .vmem S1x3x8192 .f32) (h3 : a3.IsWhole) (a4 : Memref sig .tc .vmem S1x1x256 .f32) (h4 : a4.IsWhole) (a5 : Memref sig .tc .vmem S1x1x8192 .f32) (h5 : a5.IsWhole) (a6 : Memref sig .tc .vmem S1x8192 .f32) (h6 : a6.IsWhole) (hc0 : cond0_0 i) (hc1 : ¬cond0_1 i)
    (x0 : Vec F S1x3x256 .f32) (x1 : Vec F S1x3x8192 .f32) :
    out0_A_2 c i a2 h2 a3 h3 a4 h4 a5 h5 a6 h6 hc0 hc1 x0 x1 = k0_pay4 x0 x1 := by
  unfold out0_A_2
  rw [View.read_writes_eq_canon _ _ _ (cover0_A_2 c i a2 h2 a3 h3 a4 h4 a5 h5 a6 h6 hc0 hc1 x0 x1)]
  unfold kernelRun0_A
  dsimp only
  rw [View.canon_unit_zero hz3]
  simp only [View.readAt_eq_ld, h2.read_unread, h3.read_unread, View.ld_unit_zero (S := S1x3x256) hz3, View.ld_unit_zero (S := S1x3x8192) hz3]

/-- Case B: the one store into the per-prediction output leaves the payload of the two input blocks. -/
theorem out_B_2 (c : Dev nD) (i : grid0.Coords) (a2 : Memref sig .tc .vmem S1x3x256 .f32) (h2 : a2.IsWhole) (a3 : Memref sig .tc .vmem S1x3x8192 .f32) (h3 : a3.IsWhole) (a4 : Memref sig .tc .vmem S1x1x256 .f32) (h4 : a4.IsWhole) (a5 : Memref sig .tc .vmem S1x1x8192 .f32) (h5 : a5.IsWhole) (a6 : Memref sig .tc .vmem S1x8192 .f32) (h6 : a6.IsWhole) (hc0 : ¬cond0_0 i) (hc1 : ¬cond0_1 i)
    (x0 : Vec F S1x3x256 .f32) (x1 : Vec F S1x3x8192 .f32) (xs0 : Vec F S1x8192 .f32) :
    out0_B_2 c i a2 h2 a3 h3 a4 h4 a5 h5 a6 h6 hc0 hc1 x0 x1 xs0 = k0_pay4 x0 x1 := by
  unfold out0_B_2
  rw [View.read_writes_eq_canon _ _ _ (cover0_B_2 c i a2 h2 a3 h3 a4 h4 a5 h5 a6 h6 hc0 hc1 x0 x1 xs0)]
  unfold kernelRun0_B
  dsimp only
  rw [View.canon_unit_zero hz3]
  simp only [View.readAt_eq_ld, h2.read_unread, h3.read_unread, View.ld_unit_zero (S := S1x3x256) hz3, View.ld_unit_zero (S := S1x3x8192) hz3]

/-- Case C: the one store into the per-prediction output leaves the payload of the two input blocks. -/
theorem out_C_2 (c : Dev nD) (i : grid0.Coords) (a2 : Memref sig .tc .vmem S1x3x256 .f32) (h2 : a2.IsWhole) (a3 : Memref sig .tc .vmem S1x3x8192 .f32) (h3 : a3.IsWhole) (a4 : Memref sig .tc .vmem S1x1x256 .f32) (h4 : a4.IsWhole) (a5 : Memref sig .tc .vmem S1x1x8192 .f32) (h5 : a5.IsWhole) (a6 : Memref sig .tc .vmem S1x8192 .f32) (h6 : a6.IsWhole) (hc0 : ¬cond0_0 i) (hc1 : cond0_1 i)
    (x0 : Vec F S1x3x256 .f32) (x1 : Vec F S1x3x8192 .f32) (xs0 : Vec F S1x8192 .f32) :
    out0_C_2 c i a2 h2 a3 h3 a4 h4 a5 h5 a6 h6 hc0 hc1 x0 x1 xs0 = k0_pay4 x0 x1 := by
  unfold out0_C_2
  rw [View.read_writes_eq_canon _ _ _ (cover0_C_2 c i a2 h2 a3 h3 a4 h4 a5 h5 a6 h6 hc0 hc1 x0 x1 xs0)]
  unfold kernelRun0_C
  dsimp only
  rw [View.canon_unit_zero hz3]
  simp only [View.readAt_eq_ld, h2.read_unread, h3.read_unread, View.ld_unit_zero (S := S1x3x256) hz3, View.ld_unit_zero (S := S1x3x8192) hz3]

/-! ## The carried scratch: the running minimum -/

/-- Case A (first tile of a batch): the scratch is first filled with the top element, read back, and left at the
    minimum of that and the tile's column minima. -/
theorem sout_A_0 (c : Dev nD) (i : grid0.Coords) (a2 : Memref sig .tc .vmem S1x3x256 .f32) (h2 : a2.IsWhole) (a3 : Memref sig .tc .vmem S1x3x8192 .f32) (h3 : a3.IsWhole) (a4 : Memref sig .tc .vmem S1x1x256 .f32) (h4 : a4.IsWhole) (a5 : Memref sig .tc .vmem S1x1x8192 .f32) (h5 : a5.IsWhole) (a6 : Memref sig .tc .vmem S1x8192 .f32) (h6 : a6.IsWhole) (hc0 : cond0_0 i) (hc1 : ¬cond0_1 i)
    (x0 : Vec F S1x3x256 .f32) (x1 : Vec F S1x3x8192 .f32) :
    sout0_A_0 c i a2 h2 a3 h3 a4 h4 a5 h5 a6 h6 hc0 hc1 x0 x1 = k0_pay1 (k0_pay6 x0 x1 k0_pay5) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S1x8192) hz2, View.readCov_unit_zero (S := S1x8192) _ hz2]
  simp only [View.readAt_eq_ld, h2.read_unread, h3.read_unread, View.ld_unit_zero (S := S1x3x256) hz3, View.ld_unit_zero (S := S1x3x8192) hz3]

/-- Case B (a middle tile): the scratch is left at the minimum of what the point before left and the tile's column minima. -/
theorem sout_B_0 (c : Dev nD) (i : grid0.Coords) (a2 : Memref sig .tc .vmem S1x3x256 .f32) (h2 : a2.IsWhole) (a3 : Memref sig .tc .vmem S1x3x8192 .f32) (h3 : a3.IsWhole) (a4 : Memref sig .tc .vmem S1x1x256 .f32) (h4 : a4.IsWhole) (a5 : Memref sig .tc .vmem S1x1x8192 .f32) (h5 : a5.IsWhole) (a6 : Memref sig .tc .vmem S1x8192 .f32) (h6 : a6.IsWhole) (hc0 : ¬cond0_0 i) (hc1 : ¬cond0_1 i)
    (x0 : Vec F S1x3x256 .f32) (x1 : Vec F S1x3x8192 .f32) (xs0 : Vec F S1x8192 .f32) :
    sout0_B_0 c i a2 h2 a3 h3 a4 h4 a5 h5 a6 h6 hc0 hc1 x0 x1 xs0 = k0_pay1 (k0_pay6 x0 x1 xs0) := by
  unfold sout0_B_0
  rw [View.read_writes_eq_canon _ _ _ (scover0_B_0 c i a2 h2 a3 h3 a4 h4 a5 h5 a6 h6 hc0 hc1 x0 x1 xs0)]
  unfold kernelRun0_B
  dsimp only
  sl_unfold_words
  rw [View.canon_unit_zero hz2]
  simp only [View.readAt_eq_ld, h2.read_unread, h3.read_unread, h6.read_unread, View.ld_unit_zero (S := S1x3x256) hz3, View.ld_unit_zero (S := S1x3x8192) hz3, View.ld_unit_zero (S := S1x8192) hz2]

/-- Case C (last tile of a batch): the same update of the scratch, -/
theorem sout_C_0 (c : Dev nD) (i : grid0.Coords) (a2 : Memref sig .tc .vmem S1x3x256 .f32) (h2 : a2.IsWhole) (a3 : Memref sig .tc .vmem S1x3x8192 .f32) (h3 : a3.IsWhole) (a4 : Memref sig .tc .vmem S1x1x256 .f32) (h4 : a4.IsWhole) (a5 : Memref sig .tc .vmem S1x1x8192 .f32) (h5 : a5.IsWhole) (a6 : Memref sig .tc .vmem S1x8192 .f32) (h6 : a6.IsWhole) (hc0 : ¬cond0_0 i) (hc1 : cond0_1 i)
    (x0 : Vec F S1x3x256 .f32) (x1 : Vec F S1x3x8192 .f32) (xs0 : Vec F S1x8192 .f32) :
    sout0_C_0 c i a2 h2 a3 h3 a4 h4 a5 h5 a6 h6 hc0 hc1 x0 x1 xs0 = k0_pay1 (k0_pay6 x0 x1 xs0) := by
  unfold sout0_C_0
  rw [View.read_writes_eq_canon _ _ _ (scover0_C_0 c i a2 h2 a3 h3 a4 h4 a5 h5 a6 h6 hc0 hc1 x0 x1 xs0)]
  unfold kernelRun0_C
  dsimp only
  sl_unfold_words
  rw [View.canon_unit_zero hz2]
  simp only [View.readAt_eq_ld, h2.read_unread, h3.read_unread, h6.read_unread, View.ld_unit_zero (S := S1x3x256) hz3, View.ld_unit_zero (S := S1x3x8192) hz3, View.ld_unit_zero (S := S1x8192) hz2]

/-- and the per-ground-truth output is stored from the scratch just updated, read back. -/
theorem out_C_3 (c : Dev nD) (i : grid0.Coords) (a2 : Memref sig .tc .vmem S1x3x256 .f32) (h2 : a2.IsWhole) (a3 : Memref sig .tc .vmem S1x3x8192 .f32) (h3 : a3.IsWhole) (a4 : Memref sig .tc .vmem S1x1x256 .f32) (h4 : a4.IsWhole) (a5 : Memref sig .tc .vmem S1x1x8192 .f32) (h5 : a5.IsWhole) (a6 : Memref sig .tc .vmem S1x8192 .f32) (h6 : a6.IsWhole) (hc0 : ¬cond0_0 i) (hc1 : cond0_1 i)
    (x0 : Vec F S1x3x256 .f32) (x1 : Vec F S1x3x8192 .f32) (xs0 : Vec F S1x8192 .f32) :
    out0_C_3 c i a2 h2 a3 h3 a4 h4 a5 h5 a6 h6 hc0 hc1 x0 x1 xs0 = k0_pay2 (k0_pay1 (k0_pay6 x0 x1 xs0)) := by
  unfold out0_C_3
  rw [View.read_writes_eq_canon _ _ _ (cover0_C_3 c i a2 h2 a3 h3 a4 h4 a5 h5 a6 h6 hc0 hc1 x0 x1 xs0)]
  unfold kernelRun0_C
  dsimp only
  sl_unfold_words
  rw [View.canon_unit_zero hz3, View.readCov_unit_zero (S := S1x8192) _ hz2]
  simp only [View.readAt_eq_ld, h2.read_unread, h3.read_unread, h6.read_unread, View.ld_unit_zero (S := S1x3x256) hz3, View.ld_unit_zero (S := S1x3x8192) hz3, View.ld_unit_zero (S := S1x8192) hz2]

end Cert.KernelIdeal.Pieces

end
-- ==== Proof.LibMonoMin.lean ====
/-
  Two order facts about the minimum of a finite family taken as a fold of `min` from an initial value
  (the form a reduction with a minimum body takes):
  a monotone map moves through it, and it is determined by its lower bounds.
-/
import Mathlib.Data.Finset.Fold
import Mathlib.Order.Monotone.Basic
import Mathlib.Order.Lattice

namespace Cert.LibMonoMin

variable {α β ι : Type*} [LinearOrder α] [LinearOrder β] [DecidableEq ι]

/-- A monotone map of a linear order moves through the fold of `min` from an initial value over a finite
    family: `g (min (b, f i₁, …, f iₖ)) = min (g b, g (f i₁), …, g (f iₖ))`. -/
theorem map_fold_min {g : α → β} (hg : Monotone g) (s : Finset ι) (b : α) (f : ι → α) :
    g (s.fold min b f) = s.fold min (g b) (fun i => g (f i)) := by
  induction s using Finset.induction_on with
  | empty => simp
  | insert a s ha ih => rw [Finset.fold_insert ha, Finset.fold_insert ha, hg.map_min, ih]

/-- A value whose lower bounds are exactly the common lower bounds of the initial value and the family IS the
    fold of `min`. -/
theorem eq_fold_min {s : Finset ι} {b x : α} {f : ι → α} (h : ∀ c, c ≤ x ↔ c ≤ b ∧ ∀ i ∈ s, c ≤ f i) :
    x = s.fold min b f :=
  eq_of_forall_le_iff fun c => (h c).trans (Finset.le_fold_min c).symm

end Cert.LibMonoMin
-- ==== Proof.LibIdealMin.lean ====
/-
  Facts about the ideal float values (extended reals) that a minimum-then-square-root computation needs:
  the square root is monotone on all of the extended reals, the word 0x7F800000 is the top element, and a
  lane reduction with a minimum body over ONE axis is the fold of `min` over that axis's coordinates.
-/
import Idealize.ShloMosaic.PureOps.Ideal.Laws

namespace Cert.LibIdealMin

open Idealize.ShloMosaic

/-- The ideal square root (`⊥` on `⊥` and on the negative reals, `√r` on `r ≥ 0`, `⊤` on `⊤`) is monotone on
    the whole of the extended reals. -/
theorem sqrt_mono : Monotone Ideal.sqrt := by
  intro x y hxy
  induction x with
  | bot => exact bot_le
  | top =>
    obtain rfl : y = ⊤ := top_le_iff.mp hxy
    exact le_rfl
  | coe r =>
    induction y with
    | bot => exact absurd hxy (by simp)
    | top => exact le_top
    | coe q =>
      have hrq : r ≤ q := EReal.coe_le_coe_iff.mp hxy
      simp only [Ideal.sqrt_coe]
      by_cases hr : r < 0
      · rw [if_pos hr]; exact bot_le
      · rw [if_neg hr, if_neg (fun hq => hr (lt_of_le_of_lt hrq hq))]
        exact EReal.coe_le_coe_iff.mpr (Real.sqrt_le_sqrt hrq)

/-- The f32 word of `+inf` is the top element. -/
theorem ofBits_inf_f32 : Ideal.ofBits .f32 0x7F800000#32 = ⊤ := by simp [Ideal.ofBits, Ideal.ieee]

/-- A float `vector.multi_reduction <minimumf>` over one axis, read at the ideal instance: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.LibIdealMin
-- ==== Proof.Spec.lean ====
/-
  The mathematics of the chamfer loss, stated once over the two argument arrays (extended reals), with no program
  in sight.  For a batch `b`, a predicted point `n` and a ground-truth point `m`

      d2 b n m = (|p_n|² + |g_m|²) − 2 · ⟨p_n, g_m⟩        (sums over the three coordinates)

  and `clampSqrt x = √(max x ε)`.  One program takes the minimum of `d2` over an axis and THEN applies `clampSqrt`
  (`nearK`), the other applies `clampSqrt` to every pair and then takes the minimum (`nearR`).  They agree because
  `clampSqrt` is monotone on the extended reals and fixes the top element, so it moves through a finite minimum;
  no finiteness of the entries is needed for that.
-/
import Idealize.ShloMosaic.PureOps.Ideal.Laws
import Idealize.ShloMosaic.Lib.ValueIdx
import proofs.«157189_j26259430047859_2_alg».proof.Proof.LibMonoMin
import proofs.«157189_j26259430047859_2_alg».proof.Proof.LibIdealMin

noncomputable section

namespace Cert.Chamfer

open Idealize.ShloMosaic Idealize.ShloMosaic.ValueIdx

/-- The shape of each argument: batch × coordinate × point. -/
abbrev SArg : Shape := ⟨3, ![4, 3, 8192]⟩

/-- The literals of the two programs, as their words' values. -/
abbrev two : EReal := Ideal.ofBits .f32 0x40000000#32
abbrev eps : EReal := Ideal.ofBits .f32 0x2B8CBCCC#32
abbrev inf : EReal := Ideal.ofBits .f32 0x7F800000#32

/-- The squared norm of point `n` of batch `b`. -/
def sq (X : SArg.Idx → EReal) (b : Fin 4) (n : Fin 8192) : EReal := ∑ c : Fin 3, X (ix3 b c n) * X (ix3 b c n)

/-- The inner product of predicted point `n` and ground-truth point `m` of batch `b`. -/
def dot (P G : SArg.Idx → EReal) (b : Fin 4) (n m : Fin 8192) : EReal := ∑ c : Fin 3, P (ix3 b c n) * G (ix3 b c m)

/-- The squared distance by the expansion `|p|² + |g|² − 2⟨p, g⟩`. -/
def d2 (P G : SArg.Idx → EReal) (b : Fin 4) (n m : Fin 8192) : EReal := (sq P b n + sq G b m) - two * dot P G b n m

/-- Clamp below at `ε`, then take the square root. -/
def clampSqrt (x : EReal) : EReal := Ideal.sqrt (max x eps)

theorem clampSqrt_mono : Monotone clampSqrt :=
  fun _ _ h => Cert.LibIdealMin.sqrt_mono (max_le_max h le_rfl)

/-- `clampSqrt` fixes the top element. -/
theorem clampSqrt_inf : clampSqrt inf = inf := by
  unfold clampSqrt inf
  rw [Cert.LibIdealMin.ofBits_inf_f32, max_eq_left le_top]
  rfl

/-- The minimum over one axis first, `clampSqrt` after: for each ground-truth point the nearest predicted point … -/
def nearK_g (P G : SArg.Idx → EReal) (b : Fin 4) (m : Fin 8192) : EReal :=
  clampSqrt ((Finset.univ : Finset (Fin 8192)).fold min inf fun n => d2 P G b n m)
/-- … and for each predicted point the nearest ground-truth point. -/
def nearK_p (P G : SArg.Idx → EReal) (b : Fin 4) (n : Fin 8192) : EReal :=
  clampSqrt ((Finset.univ : Finset (Fin 8192)).fold min inf fun m => d2 P G b n m)

/-- `clampSqrt` of every pair first, the minimum after. -/
def nearR_g (P G : SArg.Idx → EReal) (b : Fin 4) (m : Fin 8192) : EReal :=
  (Finset.univ : Finset (Fin 8192)).fold min inf fun n => clampSqrt (d2 P G b n m)
def nearR_p (P G : SArg.Idx → EReal) (b : Fin 4) (n : Fin 8192) : EReal :=
  (Finset.univ : Finset (Fin 8192)).fold min inf fun m => clampSqrt (d2 P G b n m)

/-- The two orders agree: a monotone map that fixes the initial value moves through the minimum. -/
theorem nearK_g_eq (P G : SArg.Idx → EReal) (b : Fin 4) (m : Fin 8192) : nearK_g P G b m = nearR_g P G b m := by
  unfold nearK_g nearR_g
  rw [Cert.LibMonoMin.map_fold_min clampSqrt_mono, clampSqrt_inf]

theorem nearK_p_eq (P G : SArg.Idx → EReal) (b : Fin 4) (n : Fin 8192) : nearK_p P G b n = nearR_p P G b n := by
  unfold nearK_p nearR_p
  rw [Cert.LibMonoMin.map_fold_min clampSqrt_mono, clampSqrt_inf]

end Cert.Chamfer

end
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibUnitAxes.lean ====
/-
  A vector given two leading unit axes by a shape cast, read at an index given by coordinates: an `[a]` array cast
  to `[1, 1, a]` reads the operand at the last coordinate, whatever the two unit coordinates.
-/
import Idealize.ShloMosaic.Lib.Pipeline.Value
import Idealize.ShloMosaic.Lib.ValueIdx

namespace Idealize.ShloMosaic.UnitAxes

open Idealize.ShloMosaic Idealize.ShloMosaic.ValueIdx

variable {α : Type}

/-- An `[a]` array cast to `[1, 1, a]` reads, at `(u, v, i)`, the operand at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp)

end Idealize.ShloMosaic.UnitAxes
-- ==== Proof.Payload.lean ====
/-
  The body's arithmetic at the ideal instance, read at an index.  For one grid point the body sees a block `x0` of
  256 predicted points and the block `x1` of all 8192 ground-truth points of one batch, both as coordinate × point.

    pairs   (r, m) ↦ (|x0_r|² + |x1_m|²) − 2 ⟨x0_r, x1_m⟩     the squared distances of the tile            (payload 3)
    rows    r ↦ clampSqrt (min over m of pairs (r, m))          stored to the per-prediction output          (payload 4)
    cols    m ↦ min (carried m) (min over r of pairs (r, m))    the scratch row, lowered by this tile        (payload 6)
    final   m ↦ clampSqrt (scratch m)                           stored to the per-ground-truth output        (payload 2)

  The squared norms are lane sums over the three coordinates from the zero word, lifted to the tile by a column and a
  row broadcast; the inner product is a matrix product of the transposed prediction block with the ground-truth block
  into a zero accumulator; the two minima are lane reductions from the top element.
-/
import proofs.«157189_j26259430047859_2_alg».proof.Proof.Gen.KernelIdeal.Skeleton
import proofs.«157189_j26259430047859_2_alg».proof.Proof.Spec
import proofs.«157189_j26259430047859_2_alg».proof.Proof.LibColumn
import proofs.«157189_j26259430047859_2_alg».proof.Proof.LibPlainDot
import proofs.«157189_j26259430047859_2_alg».proof.Proof.LibUnitAxes
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx
open Cert.Chamfer

/-! ## The stages -/

/-- The prediction block as coordinate × point, -/
def pBlk (x0 : Vec Ideal S1x3x256 .f32) : FVec Ideal S3x256 .f32 := shapeCast S3x256 x0 shapeCasts_S1x3x256_S3x256
/-- the ground-truth block likewise, -/
def gBlk (x1 : Vec Ideal S1x3x8192 .f32) : FVec Ideal S3x8192 .f32 := shapeCast S3x8192 x1 shapeCasts_S1x3x8192_S3x8192
/-- their squared norms, point by point, -/
def pSq (x0 : Vec Ideal S1x3x256 .f32) : FVec Ideal S256 .f32 :=
  multiReduction .add [0] S256 (mulf (pBlk x0) (pBlk x0)) 0x00000000#32 reduces_S3x256_S256 (.inl rfl) rfl
def gSq (x1 : Vec Ideal S1x3x8192 .f32) : FVec Ideal S8192 .f32 :=
  multiReduction .add [0] S8192 (mulf (gBlk x1) (gBlk x1)) 0x00000000#32 reduces_S3x8192_S8192 (.inl rfl) rfl
/-- and the inner products of every pair. -/
def pg (x0 : Vec Ideal S1x3x256 .f32) (x1 : Vec Ideal S1x3x8192 .f32) : FVec Ideal S256x8192 .f32 :=
  matmul dot_S256x3_S3x8192_S256x8192_1_0_0_1_n_n none (transpose S256x3 [1, 0] (pBlk x0) transposes_S3x256_p1_0_S256x3)
    (gBlk x1) (constant S256x8192 .f32 0x00000000#32)

/-- The squared distances of the tile are assembled from the stages. -/
theorem pairs_stages (x0 : Vec Ideal S1x3x256 .f32) (x1 : Vec Ideal S1x3x8192 .f32) :
    k0_pay3 x0 x1 = subf (addf (broadcastTo S256x8192 (shapeCast S256x1 (pSq x0) shapeCasts_S256_S256x1) broadcasts_S256x1_S256x8192)
      (broadcastTo S256x8192 (shapeCast S1x8192 (gSq x1) shapeCasts_S8192_S1x8192) broadcasts_S1x8192_S256x8192))
      (mulf (broadcast S256x8192 (Scalar.ofBits .f32 0x40000000#32)) (pg x0 x1)) := rfl

/-- The minimum of each row of the tile, -/
def rowMin (x0 : Vec Ideal S1x3x256 .f32) (x1 : Vec Ideal S1x3x8192 .f32) : FVec Ideal S256 .f32 :=
  multiReduction .minimumf [1] S256 (k0_pay3 x0 x1) 0x7F800000#32 reduces_S256x8192_S256 (.inl rfl) rfl
/-- and of each column. -/
def colMin (x0 : Vec Ideal S1x3x256 .f32) (x1 : Vec Ideal S1x3x8192 .f32) : FVec Ideal S8192 .f32 :=
  multiReduction .minimumf [0] S8192 (k0_pay3 x0 x1) 0x7F800000#32 reduces_S256x8192_S8192 (.inl rfl) rfl

theorem rows_stages (x0 : Vec Ideal S1x3x256 .f32) (x1 : Vec Ideal S1x3x8192 .f32) :
    k0_pay4 x0 x1 = shapeCast S1x1x256 (sqrt (maximumf (rowMin x0 x1) (broadcast S256 (Scalar.ofBits .f32 0x2B8CBCCC#32))))
      shapeCasts_S256_S1x1x256 := rfl

theorem cols_stages (x0 : Vec Ideal S1x3x256 .f32) (x1 : Vec Ideal S1x3x8192 .f32) (v : Vec Ideal S1x8192 .f32) :
    k0_pay6 x0 x1 v = minimumf v (shapeCast S1x8192 (colMin x0 x1) shapeCasts_S8192_S1x8192) := rfl

theorem final_stages (v : Vec Ideal S1x8192 .f32) :
    k0_pay2 v = shapeCast S1x1x8192 (sqrt (maximumf (shapeCast S8192 v shapeCasts_S1x8192_S8192)
      (broadcast S8192 (Scalar.ofBits .f32 0x2B8CBCCC#32)))) shapeCasts_S8192_S1x1x8192 := rfl

/-! ## The stages at an index -/

theorem pBlk_apply (x0 : Vec Ideal S1x3x256 .f32) (c : Fin 3) (r : Fin 256) : pBlk x0 (ix2 c r) = x0 (ix3 (0 : Fin 1) c r) :=
  shapeCast_1ab_ab_apply x0 _ c r

theorem gBlk_apply (x1 : Vec Ideal S1x3x8192 .f32) (c : Fin 3) (m : Fin 8192) : gBlk x1 (ix2 c m) = x1 (ix3 (0 : Fin 1) c m) :=
  shapeCast_1ab_ab_apply x1 _ c m

/-- The squared norm of prediction `r` of the block: the sum over the three coordinates. -/
theorem pSq_apply (x0 : Vec Ideal S1x3x256 .f32) (r : Fin 256) :
    pSq x0 (ix1 r) = ∑ c : Fin 3, x0 (ix3 (0 : Fin 1) c r) * x0 (ix3 (0 : Fin 1) c r) := by
  refine (Ideal.multiReduction_add_single (mulf (pBlk x0) (pBlk x0)) 0x00000000#32 reduces_S3x256_S256 (.inl rfl) rfl (ix1 r)).trans ?_
  show ∑ c : Fin 3, pBlk x0 (reduces_S3x256_S256.lift (ix1 r) c) * pBlk x0 (reduces_S3x256_S256.lift (ix1 r) c) = _
  refine Finset.sum_congr rfl fun c _ => ?_
  have e : reduces_S3x256_S256.lift (ix1 r) c = ix2 c r :=
    funext fun a => Fin.ext (by match a with | ⟨0, _⟩ => rfl | ⟨1, _⟩ => rfl)
  rw [e, pBlk_apply]

theorem gSq_apply (x1 : Vec Ideal S1x3x8192 .f32) (m : Fin 8192) :
    gSq x1 (ix1 m) = ∑ c : Fin 3, x1 (ix3 (0 : Fin 1) c m) * x1 (ix3 (0 : Fin 1) c m) := by
  refine (Ideal.multiReduction_add_single (mulf (gBlk x1) (gBlk x1)) 0x00000000#32 reduces_S3x8192_S8192 (.inl rfl) rfl (ix1 m)).trans ?_
  show ∑ c : Fin 3, gBlk x1 (reduces_S3x8192_S8192.lift (ix1 m) c) * gBlk x1 (reduces_S3x8192_S8192.lift (ix1 m) c) = _
  refine Finset.sum_congr rfl fun c _ => ?_
  have e : reduces_S3x8192_S8192.lift (ix1 m) c = ix2 c m :=
    funext fun a => Fin.ext (by match a with | ⟨0, _⟩ => rfl | ⟨1, _⟩ => rfl)
  rw [e, gBlk_apply]

/-- The inner product of prediction `r` and ground-truth point `m`: the matrix product into the zero accumulator is
    the sum over the contracted coordinate, and the transposed block reads the block at the swapped index. -/
theorem pg_apply (x0 : Vec Ideal S1x3x256 .f32) (x1 : Vec Ideal S1x3x8192 .f32) (r : Fin 256) (m : Fin 8192) :
    pg x0 x1 (ix2 r m) = ∑ c : Fin 3, x0 (ix3 (0 : Fin 1) c r) * x1 (ix3 (0 : Fin 1) c m) := by
  refine (PlainDot.matmul_apply_ix2 (M := 256) (K := 3) (N := 8192) none
    (transpose S256x3 [1, 0] (pBlk x0) transposes_S3x256_p1_0_S256x3) (gBlk x1) r m).trans ?_
  refine Finset.sum_congr rfl fun c _ => ?_
  rw [transpose_ix2_apply, pBlk_apply, gBlk_apply]

/-- The squared distance of the pair `(r, m)` of the tile. -/
theorem pairs_apply (x0 : Vec Ideal S1x3x256 .f32) (x1 : Vec Ideal S1x3x8192 .f32) (r : Fin 256) (m : Fin 8192) :
    k0_pay3 x0 x1 (ix2 r m)
      = ((∑ c : Fin 3, x0 (ix3 (0 : Fin 1) c r) * x0 (ix3 (0 : Fin 1) c r)) + ∑ c : Fin 3, x1 (ix3 (0 : Fin 1) c m) * x1 (ix3 (0 : Fin 1) c m))
        - two * ∑ c : Fin 3, x0 (ix3 (0 : Fin 1) c r) * x1 (ix3 (0 : Fin 1) c m) := by
  rw [pairs_stages]
  show (broadcastTo S256x8192 (shapeCast S256x1 (pSq x0) shapeCasts_S256_S256x1) broadcasts_S256x1_S256x8192 (ix2 r m)
      + broadcastTo S256x8192 (shapeCast S1x8192 (gSq x1) shapeCasts_S8192_S1x8192) broadcasts_S1x8192_S256x8192 (ix2 r m))
      - two * pg x0 x1 (ix2 r m) = _
  rw [Column.broadcastTo_a1_ab_apply, Column.shapeCast_a_a1_apply, broadcastTo_1b_ab_apply, shapeCast_a_1a_apply,
    pSq_apply, gSq_apply, pg_apply]

/-- The minimum of row `r`: the fold of `min` from the top element over the 8192 columns. -/
theorem rowMin_apply (x0 : Vec Ideal S1x3x256 .f32) (x1 : Vec Ideal S1x3x8192 .f32) (r : Fin 256) :
    rowMin x0 x1 (ix1 r) = (Finset.univ : Finset (Fin 8192)).fold min inf fun m => k0_pay3 x0 x1 (ix2 r m) := by
  refine (Cert.LibIdealMin.multiReduction_minimumf_single (k0_pay3 x0 x1) 0x7F800000#32 reduces_S256x8192_S256 (.inl rfl) rfl (ix1 r)).trans ?_
  show (Finset.univ : Finset (Fin 8192)).fold min inf (fun m => k0_pay3 x0 x1 (reduces_S256x8192_S256.lift (ix1 r) m)) = _
  refine Finset.fold_congr fun m _ => ?_
  exact congrArg (k0_pay3 x0 x1) (funext fun a => Fin.ext (by match a with | ⟨0, _⟩ => rfl | ⟨1, _⟩ => rfl))

/-- The minimum of column `m`: the fold of `min` from the top element over the 256 rows. -/
theorem colMin_apply (x0 : Vec Ideal S1x3x256 .f32) (x1 : Vec Ideal S1x3x8192 .f32) (m : Fin 8192) :
    colMin x0 x1 (ix1 m) = (Finset.univ : Finset (Fin 256)).fold min inf fun r => k0_pay3 x0 x1 (ix2 r m) := by
  refine (Cert.LibIdealMin.multiReduction_minimumf_single (k0_pay3 x0 x1) 0x7F800000#32 reduces_S256x8192_S8192 (.inl rfl) rfl (ix1 m)).trans ?_
  show (Finset.univ : Finset (Fin 256)).fold min inf (fun r => k0_pay3 x0 x1 (reduces_S256x8192_S8192.lift (ix1 m) r)) = _
  refine Finset.fold_congr fun r _ => ?_
  exact congrArg (k0_pay3 x0 x1) (funext fun a => Fin.ext (by match a with | ⟨0, _⟩ => rfl | ⟨1, _⟩ => rfl))

/-! ## The payloads at an index -/

/-- The pointwise square root read at an index. -/
theorem sqrt_apply {s : Shape} (a : FVec Ideal s .f32) (i : s.Idx) : sqrt a i = Ideal.sqrt (a i) := rfl

/-- What is stored to the per-prediction output at lane `r`: `clampSqrt` of the row's minimum. -/
theorem rows_apply (x0 : Vec Ideal S1x3x256 .f32) (x1 : Vec Ideal S1x3x8192 .f32) (r : Fin 256) :
    k0_pay4 x0 x1 (ix3 (0 : Fin 1) (0 : Fin 1) r)
      = clampSqrt ((Finset.univ : Finset (Fin 8192)).fold min inf fun m => k0_pay3 x0 x1 (ix2 r m)) := by
  rw [rows_stages, UnitAxes.shapeCast_a_11a_apply, sqrt_apply, maximumf_apply, broadcast_apply, rowMin_apply]
  rfl

/-- The scratch row after the point at lane `m`: the carried value lowered by the column's minimum. -/
theorem cols_apply (x0 : Vec Ideal S1x3x256 .f32) (x1 : Vec Ideal S1x3x8192 .f32) (v : Vec Ideal S1x8192 .f32) (m : Fin 8192) :
    k0_pay6 x0 x1 v (ix2 (0 : Fin 1) m)
      = min (v (ix2 (0 : Fin 1) m)) ((Finset.univ : Finset (Fin 256)).fold min inf fun r => k0_pay3 x0 x1 (ix2 r m)) := by
  rw [cols_stages]
  show min (v (ix2 (0 : Fin 1) m)) (shapeCast S1x8192 (colMin x0 x1) shapeCasts_S8192_S1x8192 (ix2 (0 : Fin 1) m)) = _
  rw [shapeCast_a_1a_apply, colMin_apply]

/-- What is stored to the per-ground-truth output at lane `m`: `clampSqrt` of the scratch. -/
theorem final_apply (v : Vec Ideal S1x8192 .f32) (m : Fin 8192) :
    k0_pay2 v (ix3 (0 : Fin 1) (0 : Fin 1) m) = clampSqrt (v (ix2 (0 : Fin 1) m)) := by
  rw [final_stages, UnitAxes.shapeCast_a_11a_apply, sqrt_apply, maximumf_apply, broadcast_apply, shapeCast_1a_a_apply]
  rfl

/-- The reset value of the scratch: the top element in every lane. -/
theorem reset_apply (j : S1x8192.Idx) : k0_pay5 (F := Ideal) j = inf := by
  show shapeCast S1x8192 (broadcast S1x8192 (Scalar.ofBits (F := Ideal) .f32 0x7F800000#32)) shapeCasts_S1x8192_S1x8192 j = _
  rw [shapeCast_self]
  rfl

/-- The store into the scratch passes its value through a cast between equal shapes. -/
theorem carry_eq (v : FVec Ideal S1x8192 .f32) : k0_pay1 v = v := shapeCast_self v _

end Cert.KernelIdeal.Payload

end
-- ==== Proof.Blocks.lean ====
/-
  Which entries of the arrays a grid point sees.  The grid is 4 batches × 32 tiles, walked batch by batch: point `t`
  is batch `t / 32`, tile `t % 32`.  Its prediction block is coordinates × the 256 points `256 (t % 32) + r` of that
  batch; its ground-truth block is coordinates × all 8192 points of that batch.  The per-prediction output block is
  the same 256 points; the per-ground-truth output block is the batch's whole row.
-/
import proofs.«157189_j26259430047859_2_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The batch of a grid point, -/
def bOf (t : Fin cfg0.N) : Fin 4 := ⟨t.val / 32, by have := t.isLt; have : cfg0.N = 128 := N_0; omega⟩
/-- and the predicted point that lane `r` of its tile holds. -/
def nOf (t : Fin cfg0.N) (r : Fin 256) : Fin 8192 := ⟨256 * (t.val % 32) + r.val, by have := r.isLt; omega⟩

/-- The printed index maps, decided once over the grid. -/
theorem idx_facts : ∀ t : Fin cfg0.N,
    win0_0.index t (0 : Fin 3) = t.val / 32 ∧ win0_0.index t (1 : Fin 3) = 0 ∧ win0_0.index t (2 : Fin 3) = t.val % 32
    ∧ win0_1.index t (0 : Fin 3) = t.val / 32 ∧ win0_1.index t (1 : Fin 3) = 0 ∧ win0_1.index t (2 : Fin 3) = 0
    ∧ win0_2.index t (0 : Fin 3) = t.val / 32 ∧ win0_2.index t (1 : Fin 3) = 0 ∧ win0_2.index t (2 : Fin 3) = t.val % 32
    ∧ win0_3.index t (0 : Fin 3) = t.val / 32 ∧ win0_3.index t (1 : Fin 3) = 0 ∧ win0_3.index t (2 : Fin 3) = 0 :=
  (by decide +kernel : ∀ t : Fin grid0.N, _)

/-- The prediction block at `(0, k, r)` is the prediction array at `(batch, k, 256 tile + r)`. -/
theorem pblk_apply (c : Dev nD) (t : Fin cfg0.N) (k : Fin 3) (r : Fin 256) :
    (iblk m c 0 t : Vec Ideal S1x3x256 .f32) (ix3 (0 : Fin 1) k r) = V m c main_arg0 (ix3 (bOf t) k (nOf t r)) := by
  obtain ⟨e0, e1, e2, -⟩ := idx_facts t
  unfold iblk
  rw [View.read_apply]
  show V m c main_arg0 (((cfg0.win 0).blk t).view.emb (ix3 (0 : Fin 1) k r)) = _
  refine congrArg (V m c main_arg0) (funext fun a => Fin.ext ?_)
  match a with
  | ⟨0, _⟩ => show win0_0.index t (0 : Fin 3) * 1 + 1 * (0 : Fin 1).val = t.val / 32; rw [e0]; simp
  | ⟨1, _⟩ => show win0_0.index t (1 : Fin 3) * 3 + 1 * k.val = k.val; omega
  | ⟨2, _⟩ => show win0_0.index t (2 : Fin 3) * 256 + 1 * r.val = 256 * (t.val % 32) + r.val; omega

/-- The ground-truth block at `(0, k, j)` is the ground-truth array at `(batch, k, j)`. -/
theorem gblk_apply (c : Dev nD) (t : Fin cfg0.N) (k : Fin 3) (j : Fin 8192) :
    (iblk m c 1 t : Vec Ideal S1x3x8192 .f32) (ix3 (0 : Fin 1) k j) = V m c main_arg1 (ix3 (bOf t) k j) := by
  obtain ⟨-, -, -, e0, e1, e2, -⟩ := idx_facts t
  unfold iblk
  rw [View.read_apply]
  show V m c main_arg1 (((cfg0.win 1).blk t).view.emb (ix3 (0 : Fin 1) k j)) = _
  refine congrArg (V m c main_arg1) (funext fun a => Fin.ext ?_)
  match a with
  | ⟨0, _⟩ => show win0_1.index t (0 : Fin 3) * 1 + 1 * (0 : Fin 1).val = t.val / 32; rw [e0]; simp
  | ⟨1, _⟩ => show win0_1.index t (1 : Fin 3) * 3 + 1 * k.val = k.val; omega
  | ⟨2, _⟩ => show win0_1.index t (2 : Fin 3) * 8192 + 1 * j.val = j.val; omega

end Cert.KernelIdeal.Blocks

end
-- ==== Proof.RunningMin.lean ====
/-
  The minimum over all 8192 predicted points, taken tile by tile.  A value is carried from tile to tile; after tile
  `i` its lower bounds are exactly the common lower bounds of the first `256 (i + 1)` entries.  One tile's step:
  lowering the carried value by the minimum of the tile's 256 entries extends the range by 256.
-/
import proofs.«157189_j26259430047859_2_alg».proof.Proof.Spec

noncomputable section

namespace Cert.Chamfer

/-- The top element bounds everything: a carried value reset to it has the lower bounds of the empty range. -/
theorem le_inf (x : EReal) : x ≤ inf := by
  rw [show inf = ⊤ from Cert.LibIdealMin.ofBits_inf_f32]; exact le_top

/-- One tile's step of the running minimum. -/
theorem lower_step {D : Fin 8192 → EReal} {i : ℕ} (hi : i < 32) {prev : EReal} {tile : Fin 256 → EReal}
    (htile : ∀ r : Fin 256, tile r = D ⟨256 * i + r.val, by have := r.isLt; omega⟩)
    (hprev : ∀ x, x ≤ prev ↔ ∀ n' : Fin 8192, n'.val < 256 * i → x ≤ D n') (x : EReal) :
    x ≤ min prev ((Finset.univ : Finset (Fin 256)).fold min inf tile)
      ↔ ∀ n' : Fin 8192, n'.val < 256 * (i + 1) → x ≤ D n' := by
  rw [le_min_iff, hprev, Finset.le_fold_min]
  constructor
  · rintro ⟨h1, -, h2⟩ n' hn'
    by_cases h : n'.val < 256 * i
    · exact h1 n' h
    · have h3 := h2 ⟨n'.val - 256 * i, by omega⟩ (Finset.mem_univ _)
      rw [htile] at h3
      exact h3.trans_eq (congrArg D (Fin.ext (by show 256 * i + (n'.val - 256 * i) = n'.val; omega)))
  · intro h
    refine ⟨fun n' hn' => h n' (by omega), le_inf x, fun r _ => ?_⟩
    rw [htile]
    exact h _ (by have := r.isLt; show 256 * i + r.val < 256 * (i + 1); omega)

/-- Before the first tile nothing has been seen: the reset value has the lower bounds of the empty range. -/
theorem lower_reset {D : Fin 8192 → EReal} (x : EReal) :
    x ≤ inf ↔ ∀ n' : Fin 8192, n'.val < 256 * 0 → x ≤ D n' :=
  ⟨fun _ n' hn' => absurd hn' (by omega), fun _ => le_inf x⟩

/-- After the last tile the carried value is the minimum over all the points. -/
theorem eq_fold_of_lower {D : Fin 8192 → EReal} {s : EReal}
    (hs : ∀ x, x ≤ s ↔ ∀ n' : Fin 8192, n'.val < 256 * (31 + 1) → x ≤ D n') :
    s = (Finset.univ : Finset (Fin 8192)).fold min inf D :=
  Cert.LibMonoMin.eq_fold_min fun x => (hs x).trans
    ⟨fun h => ⟨le_inf x, fun n' _ => h n' n'.isLt⟩, fun h n' _ => h.2 n' (Finset.mem_univ _)⟩

end Cert.Chamfer

end
-- ==== Proof.Invariant.lean ====
/-
  What the staging buffers and the scratch hold after each grid point, as mathematics.  With `P`, `G` the two
  argument arrays, at point `t` (batch `b = t / 32`, tile `i = t % 32`):

    * the tile's squared distances are `d2 P G b (256 i + r) j`;
    * the per-prediction output block holds, at lane `r`, `clampSqrt` of the minimum over all ground-truth points of
      `d2 P G b (256 i + r) ·` — complete at every point;
    * the scratch row holds, at lane `j`, a value whose lower bounds are exactly the common lower bounds of
      `d2 P G b n' j` over the predicted points `n' < 256 (i + 1)` seen so far in this batch (induction on the
      point: the first tile of a batch resets the scratch to the top element, every tile lowers it by its column
      minima), so after the last tile it is the minimum over all predicted points;
    * at the last tile the per-ground-truth output block holds `clampSqrt` of that.
-/
import proofs.«157189_j26259430047859_2_alg».proof.Proof.Pieces
import proofs.«157189_j26259430047859_2_alg».proof.Proof.Payload
import proofs.«157189_j26259430047859_2_alg».proof.Proof.Blocks
import proofs.«157189_j26259430047859_2_alg».proof.Proof.RunningMin

set_option maxRecDepth 16384

noncomputable section

namespace Cert.KernelIdeal.Inv

open Cert.KernelIdeal Cert.KernelIdeal.Gen Idealize.ShloMosaic Idealize.ShloMosaic.TcCoe Idealize.SL.Sem
open Idealize.ShloMosaic.ValueIdx Cert.Chamfer Cert.KernelIdeal.Blocks

variable (m : (ℓ : Loc nD τ sig) → Buf (Elt Ideal) ℓ)

/-- The two argument arrays as the region finds them. -/
abbrev P (c : Dev nD) : SArg.Idx → EReal := V m c main_arg0
abbrev G (c : Dev nD) : SArg.Idx → EReal := V m c main_arg1

/-- The two input blocks of a grid point, with their literal shapes. -/
def xP (c : Dev nD) (t : Fin cfg0.N) : Vec Ideal S1x3x256 .f32 := iblk m c 0 t
def xG (c : Dev nD) (t : Fin cfg0.N) : Vec Ideal S1x3x8192 .f32 := iblk m c 1 t

theorem xP_apply (c : Dev nD) (t : Fin cfg0.N) (k : Fin 3) (r : Fin 256) :
    xP m c t (ix3 (0 : Fin 1) k r) = P m c (ix3 (bOf t) k (nOf t r)) := pblk_apply m c t k r
theorem xG_apply (c : Dev nD) (t : Fin cfg0.N) (k : Fin 3) (j : Fin 8192) :
    xG m c t (ix3 (0 : Fin 1) k j) = G m c (ix3 (bOf t) k j) := gblk_apply m c t k j

/-- The tile's squared distances are those of the point's batch and rows. -/
theorem tile_apply (c : Dev nD) (t : Fin cfg0.N) (r : Fin 256) (j : Fin 8192) :
    k0_pay3 (F := Ideal) (xP m c t) (xG m c t) (ix2 r j) = d2 (P m c) (G m c) (bOf t) (nOf t r) j := by
  refine (Payload.pairs_apply (xP m c t) (xG m c t) r j).trans ?_
  unfold Cert.Chamfer.d2 Cert.Chamfer.sq Cert.Chamfer.dot
  simp only [xP_apply, xG_apply]

/-! ## The per-prediction output -/

/-- After every point, whatever its case, the output block is the rows payload of the point's input blocks. -/
theorem out2_eq (c : Dev nD) (t : Fin cfg0.N) :
    (outsAt0 m c t.val t.isLt).1 = k0_pay4 (F := Ideal) (xP m c t) (xG m c t) := by
  by_cases h0 : t.val % 32 = 0
  · have h1 : ¬t.val % 32 = 31 := by omega
    rw [outsAt0_A m c t h0 h1]
    dsimp only
    exact Pieces.out_A_2 (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (xP m c t) (xG m c t)
  · by_cases h1 : t.val % 32 = 31
    · rw [outsAt0_C m c t h0 h1]
      dsimp only
      exact Pieces.out_C_2 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xP m c t) (xG m c t) (outsAt0 m c (t.val - 1) (Nat.lt_of_le_of_lt (Nat.sub_le t.val 1) t.isLt)).2.2
    · rw [outsAt0_B m c t h0 h1]
      dsimp only
      exact Pieces.out_B_2 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (xP m c t) (xG m c t) (outsAt0 m c (t.val - 1) (Nat.lt_of_le_of_lt (Nat.sub_le t.val 1) t.isLt)).2.2

/-- At lane `r`: `clampSqrt` of the minimum over the ground-truth points. -/
theorem out2_apply (c : Dev nD) (t : Fin cfg0.N) (r : Fin 256) :
    (outsAt0 m c t.val t.isLt).1 (ix3 (0 : Fin 1) (0 : Fin 1) r) = nearK_p (P m c) (G m c) (bOf t) (nOf t r) := by
  rw [out2_eq, Payload.rows_apply (xP m c t) (xG m c t) r]
  unfold nearK_p
  exact congrArg clampSqrt (Finset.fold_congr fun j _ => tile_apply m c t r j)

/-! ## The scratch: a running minimum -/

/-- The first tile of a batch: the scratch is reset, then lowered by the tile. -/
theorem scr_first (c : Dev nD) (t : Fin cfg0.N) (h0 : t.val % 32 = 0) :
    (outsAt0 m c t.val t.isLt).2.2 = k0_pay1 (F := Ideal) (k0_pay6 (F := Ideal) (xP m c t) (xG m c t) (k0_pay5 (F := Ideal))) := by
  have h1 : ¬t.val % 32 = 31 := by omega
  rw [outsAt0_A m c t h0 h1]
  dsimp only
  exact Pieces.sout_A_0 (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (xP m c t) (xG m c t)

/-- Every other tile: what the point before left, lowered by the tile. -/
theorem scr_next (c : Dev nD) (t : Fin cfg0.N) (h0 : ¬t.val % 32 = 0) :
    (outsAt0 m c t.val t.isLt).2.2 = k0_pay1 (F := Ideal) (k0_pay6 (F := Ideal) (xP m c t) (xG m c t) (outsAt0 m c (t.val - 1) (Nat.lt_of_le_of_lt (Nat.sub_le t.val 1) t.isLt)).2.2) := by
  by_cases h1 : t.val % 32 = 31
  · rw [outsAt0_C m c t h0 h1]
    dsimp only
    exact Pieces.sout_C_0 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xP m c t) (xG m c t) (outsAt0 m c (t.val - 1) (Nat.lt_of_le_of_lt (Nat.sub_le t.val 1) t.isLt)).2.2
  · rw [outsAt0_B m c t h0 h1]
    dsimp only
    exact Pieces.sout_B_0 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (xP m c t) (xG m c t) (outsAt0 m c (t.val - 1) (Nat.lt_of_le_of_lt (Nat.sub_le t.val 1) t.isLt)).2.2

/-- One point's step of the invariant: given the lower bounds of what the point before left (needed only when the
    point is not the first tile of its batch), the scratch after the point has the lower bounds of one more tile. -/
theorem scr_step (c : Dev nD) (t : Fin cfg0.N) (j : Fin 8192)
    (hprev : ¬t.val % 32 = 0 → ∀ x : EReal, x ≤ (outsAt0 m c (t.val - 1) (Nat.lt_of_le_of_lt (Nat.sub_le t.val 1) t.isLt)).2.2 (ix2 (0 : Fin 1) j)
      ↔ ∀ n' : Fin 8192, n'.val < 256 * (t.val % 32) → x ≤ d2 (P m c) (G m c) (bOf t) n' j) (x : EReal) :
    x ≤ (outsAt0 m c t.val t.isLt).2.2 (ix2 (0 : Fin 1) j)
      ↔ ∀ n' : Fin 8192, n'.val < 256 * (t.val % 32 + 1) → x ≤ d2 (P m c) (G m c) (bOf t) n' j := by
  by_cases h0 : t.val % 32 = 0
  · rw [scr_first m c t h0, Payload.carry_eq, Payload.cols_apply (xP m c t) (xG m c t) (k0_pay5 (F := Ideal)) j, Payload.reset_apply]
    exact lower_step (D := fun n' => d2 (P m c) (G m c) (bOf t) n' j) (i := t.val % 32) (Nat.mod_lt _ (by norm_num))
      (fun r => tile_apply m c t r j) (by rw [h0]; exact fun x => lower_reset x) x
  · rw [scr_next m c t h0, Payload.carry_eq, Payload.cols_apply (xP m c t) (xG m c t) (outsAt0 m c (t.val - 1) (Nat.lt_of_le_of_lt (Nat.sub_le t.val 1) t.isLt)).2.2 j]
    exact lower_step (D := fun n' => d2 (P m c) (G m c) (bOf t) n' j) (i := t.val % 32) (Nat.mod_lt _ (by norm_num))
      (fun r => tile_apply m c t r j) (hprev h0) x

/-- THE INVARIANT, by induction on the point: after point `n` the scratch at lane `j` has exactly the common lower
    bounds of `d2` over the predicted points of the batch seen so far. -/
theorem scr_lower (c : Dev nD) : ∀ (n : ℕ) (hn : n < cfg0.N) (j : Fin 8192) (x : EReal),
    x ≤ (outsAt0 m c n hn).2.2 (ix2 (0 : Fin 1) j)
      ↔ ∀ n' : Fin 8192, n'.val < 256 * (n % 32 + 1) → x ≤ d2 (P m c) (G m c) (bOf ⟨n, hn⟩) n' j := by
  intro n
  induction n with
  | zero =>
    intro hn j x
    exact scr_step m c ⟨0, hn⟩ j (fun h => absurd (Nat.zero_mod 32) h) x
  | succ k ih =>
    intro hn j x
    refine scr_step m c ⟨k + 1, hn⟩ j (fun h0 x' => ?_) x
    have h0' : ¬(k + 1) % 32 = 0 := h0
    have hk : k < cfg0.N := Nat.lt_of_succ_lt hn
    have e1 : k % 32 + 1 = (k + 1) % 32 := by omega
    have e2 : bOf ⟨k, hk⟩ = bOf ⟨k + 1, hn⟩ := Fin.ext (by show k / 32 = (k + 1) / 32; omega)
    have h := ih hk j x'
    rw [e1, e2] at h
    exact h

/-- After the last tile of a batch the scratch at lane `j` is the minimum over all the predicted points. -/
theorem scr_last (c : Dev nD) (t : Fin cfg0.N) (h1 : t.val % 32 = 31) (j : Fin 8192) :
    (outsAt0 m c t.val t.isLt).2.2 (ix2 (0 : Fin 1) j)
      = (Finset.univ : Finset (Fin 8192)).fold min inf fun n' => d2 (P m c) (G m c) (bOf t) n' j :=
  eq_fold_of_lower fun x => by
    have h := scr_lower m c t.val t.isLt j x
    rw [h1] at h
    exact h

/-! ## The per-ground-truth output -/

/-- At the last tile of a batch it is stored from the scratch the same point leaves. -/
theorem out3_eq (c : Dev nD) (t : Fin cfg0.N) (h1 : t.val % 32 = 31) :
    (outsAt0 m c t.val t.isLt).2.1 = k0_pay2 (F := Ideal) (outsAt0 m c t.val t.isLt).2.2 := by
  have h0 : ¬t.val % 32 = 0 := by omega
  rw [outsAt0_C m c t h0 h1]
  dsimp only
  rw [Pieces.sout_C_0 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le t.val 1) t.isLt)).2.2]
  exact Pieces.out_C_3 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le t.val 1) t.isLt)).2.2

/-- At lane `j`: `clampSqrt` of the minimum over the predicted points. -/
theorem out3_apply (c : Dev nD) (t : Fin cfg0.N) (h1 : t.val % 32 = 31) (j : Fin 8192) :
    (outsAt0 m c t.val t.isLt).2.1 (ix3 (0 : Fin 1) (0 : Fin 1) j) = nearK_g (P m c) (G m c) (bOf t) j := by
  rw [out3_eq m c t h1, Payload.final_apply, scr_last m c t h1 j]
  rfl

end Cert.KernelIdeal.Inv

end
-- ==== Proof.Arrays.lean ====
/-
  From blocks to arrays.  The per-prediction array `[4, 1, 8192]` is written back at every grid point, block
  `(b, 0, i)` of 256 lanes; the per-ground-truth array `[4, 1, 8192]` is written back at the last tile of each batch,
  block `(b, 0, 0)` of all 8192 lanes.  Each written block is the restriction of ONE function of the argument arrays
  — for prediction `(b, n)` the clamped root of the minimum over ground-truth points, for ground-truth point `(b, j)`
  the clamped root of the minimum over predictions — and the written blocks cover the arrays, so after the region the
  arrays hold those functions.
-/
import proofs.«157189_j26259430047859_2_alg».proof.Proof.Invariant

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx Cert.Chamfer Cert.KernelIdeal.Blocks Cert.KernelIdeal.Inv

variable (m : (ℓ : Loc nD τ sig) → Buf (Elt Ideal) ℓ)

/-- The per-prediction array: at `(b, ·, n)` the nearest ground-truth distance of prediction `n` of batch `b`. -/
def nearP (c : Dev nD) : Buf (Elt Ideal) ((c : Thread nD τ).loc main_v0_0) :=
  show S4x1x8192.Idx → EReal from fun i => nearK_p (P m c) (G m c) ⟨(i 0).val, (i 0).isLt⟩ ⟨(i 2).val, (i 2).isLt⟩

/-- The per-ground-truth array: at `(b, ·, j)` the nearest prediction distance of ground-truth point `j` of batch `b`. -/
def nearG (c : Dev nD) : Buf (Elt Ideal) ((c : Thread nD τ).loc main_v0_1) :=
  show S4x1x8192.Idx → EReal from fun i => nearK_g (P m c) (G m c) ⟨(i 0).val, (i 0).isLt⟩ ⟨(i 2).val, (i 2).isLt⟩

/-! ## The per-prediction array -/

/-- What point `t` writes back is block `t` of `nearP`. -/
theorem flushedP_eq (c : Dev nD) (t : Fin cfg0.N) :
    (dats m 0 c).flushed 2 t = ((cfg0.win 2).blk t).view.read (Elt Ideal) (nearP m c) := by
  obtain ⟨-, -, -, -, -, -, e0, e1, e2, -⟩ := idx_facts t
  show (cfg0.win 2).cut (grid0.coords t) ((dats m 0 c).after 2 t) = _
  rw [after0_2]
  funext y
  obtain ⟨u, v, r, rfl⟩ : ∃ (u v : Fin 1) (r : Fin 256), y = ix3 u v r := ⟨y 0, y 1, y 2, eq_ix3 y⟩
  obtain rfl : u = 0 := Subsingleton.elim _ _
  obtain rfl : v = 0 := Subsingleton.elim _ _
  show (outsAt0 m c t.val t.isLt).1 (ix3 (0 : Fin 1) (0 : Fin 1) r) = nearP m c (((cfg0.win 2).blk t).view.emb (ix3 (0 : Fin 1) (0 : Fin 1) r))
  rw [out2_apply]
  show nearK_p (P m c) (G m c) (bOf t) (nOf t r) = nearK_p (P m c) (G m c) ⟨_, _⟩ ⟨_, _⟩
  congr 1
  · apply Fin.ext
    show t.val / 32 = win0_2.index t (0 : Fin 3) * 1 + 1 * (0 : Fin 1).val
    rw [e0]; simp
  · apply Fin.ext
    show 256 * (t.val % 32) + r.val = win0_2.index t (2 : Fin 3) * 256 + 1 * r.val
    omega

/-- An index is in point `t`'s block iff each coordinate is in the block's range. -/
theorem mem_blkP (t : Fin cfg0.N) (i : S4x1x8192.Idx) :
    i ∈ ((cfg0.win 2).blk t).view.set ↔ ∀ a : Fin 3, win0_2.index t a * S1x1x256.size a ≤ (i a).val ∧ (i a).val < win0_2.index t a * S1x1x256.size a + S1x1x256.size a := by
  show i ∈ ((View.whole main_v0_0).slice (win0_2.rect t)).set ↔ _
  rw [View.set_slice_whole, Rect.mem_set_unit]
  exact Iff.rfl

/-- Every index is in the block of the point of its batch and tile. -/
theorem coverP (i : S4x1x8192.Idx) :
    ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 8192 := (i 2).isLt
  have hN : cfg0.N = 128 := N_0
  have ht : 32 * (i 0).val + (i 2).val / 256 < cfg0.N := by omega
  obtain ⟨-, -, -, -, -, -, e0, e1, e2, -⟩ := idx_facts ⟨32 * (i 0).val + (i 2).val / 256, ht⟩
  refine ⟨⟨32 * (i 0).val + (i 2).val / 256, ht⟩, flush0_2 _, ?_⟩
  rw [mem_blkP]
  intro a
  match a with
  | ⟨0, _⟩ =>
    show win0_2.index ⟨32 * (i 0).val + (i 2).val / 256, ht⟩ (0 : Fin 3) * 1 ≤ (i 0).val ∧ (i 0).val < win0_2.index ⟨32 * (i 0).val + (i 2).val / 256, ht⟩ (0 : Fin 3) * 1 + 1
    rw [e0]; dsimp only; omega
  | ⟨1, _⟩ =>
    show win0_2.index ⟨32 * (i 0).val + (i 2).val / 256, ht⟩ (1 : Fin 3) * 1 ≤ (i 1).val ∧ (i 1).val < win0_2.index ⟨32 * (i 0).val + (i 2).val / 256, ht⟩ (1 : Fin 3) * 1 + 1
    rw [e1]; omega
  | ⟨2, _⟩ =>
    show win0_2.index ⟨32 * (i 0).val + (i 2).val / 256, ht⟩ (2 : Fin 3) * 256 ≤ (i 2).val ∧ (i 2).val < win0_2.index ⟨32 * (i 0).val + (i 2).val / 256, ht⟩ (2 : Fin 3) * 256 + 256
    rw [e2]; dsimp only; omega

/-- After the region the per-prediction array is `nearP`. -/
theorem finalP (c : Dev nD) : (dats m 0 c).arrAt 2 cfg0.N = nearP m c :=
  (dats m 0 c).arrAt_eq_of_cover 2 (nearP m c) (fun t _ => flushedP_eq m c t) coverP

/-! ## The per-ground-truth array -/

/-- What a last tile writes back is its batch's row of `nearG`. -/
theorem flushedG_eq (c : Dev nD) (t : Fin cfg0.N) (hf : (cfg0.win 3).flush t = true) :
    (dats m 0 c).flushed 3 t = ((cfg0.win 3).blk t).view.read (Elt Ideal) (nearG m c) := by
  have h1 : t.val % 32 = 31 := (flush0_3 t).mp hf
  obtain ⟨-, -, -, -, -, -, -, -, -, e0, e1, e2⟩ := idx_facts t
  show (cfg0.win 3).cut (grid0.coords t) ((dats m 0 c).after 3 t) = _
  rw [after0_3]
  funext y
  obtain ⟨u, v, j, rfl⟩ : ∃ (u v : Fin 1) (j : Fin 8192), y = ix3 u v j := ⟨y 0, y 1, y 2, eq_ix3 y⟩
  obtain rfl : u = 0 := Subsingleton.elim _ _
  obtain rfl : v = 0 := Subsingleton.elim _ _
  show (outsAt0 m c t.val t.isLt).2.1 (ix3 (0 : Fin 1) (0 : Fin 1) j) = nearG m c (((cfg0.win 3).blk t).view.emb (ix3 (0 : Fin 1) (0 : Fin 1) j))
  rw [out3_apply m c t h1 j]
  show nearK_g (P m c) (G m c) (bOf t) j = nearK_g (P m c) (G m c) ⟨_, _⟩ ⟨_, _⟩
  congr 1
  · apply Fin.ext
    show t.val / 32 = win0_3.index t (0 : Fin 3) * 1 + 1 * (0 : Fin 1).val
    rw [e0]; simp
  · apply Fin.ext
    show j.val = win0_3.index t (2 : Fin 3) * 8192 + 1 * j.val
    omega

theorem mem_blkG (t : Fin cfg0.N) (i : S4x1x8192.Idx) :
    i ∈ ((cfg0.win 3).blk t).view.set ↔ ∀ a : Fin 3, win0_3.index t a * S1x1x8192.size a ≤ (i a).val ∧ (i a).val < win0_3.index t a * S1x1x8192.size a + S1x1x8192.size a := by
  show i ∈ ((View.whole main_v0_1).slice (win0_3.rect t)).set ↔ _
  rw [View.set_slice_whole, Rect.mem_set_unit]
  exact Iff.rfl

/-- Every index is in the row written back at the last tile of its batch. -/
theorem coverG (i : S4x1x8192.Idx) :
    ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 8192 := (i 2).isLt
  have hN : cfg0.N = 128 := N_0
  have ht : 32 * (i 0).val + 31 < cfg0.N := by omega
  obtain ⟨-, -, -, -, -, -, -, -, -, e0, e1, e2⟩ := idx_facts ⟨32 * (i 0).val + 31, ht⟩
  refine ⟨⟨32 * (i 0).val + 31, ht⟩, (flush0_3 _).mpr (by dsimp only; omega), ?_⟩
  rw [mem_blkG]
  intro a
  match a with
  | ⟨0, _⟩ =>
    show win0_3.index ⟨32 * (i 0).val + 31, ht⟩ (0 : Fin 3) * 1 ≤ (i 0).val ∧ (i 0).val < win0_3.index ⟨32 * (i 0).val + 31, ht⟩ (0 : Fin 3) * 1 + 1
    rw [e0]; dsimp only; omega
  | ⟨1, _⟩ =>
    show win0_3.index ⟨32 * (i 0).val + 31, ht⟩ (1 : Fin 3) * 1 ≤ (i 1).val ∧ (i 1).val < win0_3.index ⟨32 * (i 0).val + 31, ht⟩ (1 : Fin 3) * 1 + 1
    rw [e1]; omega
  | ⟨2, _⟩ =>
    show win0_3.index ⟨32 * (i 0).val + 31, ht⟩ (2 : Fin 3) * 8192 ≤ (i 2).val ∧ (i 2).val < win0_3.index ⟨32 * (i 0).val + 31, ht⟩ (2 : Fin 3) * 8192 + 8192
    rw [e2]; omega

/-- After the region the per-ground-truth array is `nearG`. -/
theorem finalG (c : Dev nD) : (dats m 0 c).arrAt 3 cfg0.N = nearG m c :=
  (dats m 0 c).arrAt_eq_of_cover 3 (nearG m c) (flushedG_eq m c) coverG

end Cert.KernelIdeal.Arrays

end
-- ==== Proof.Loss.lean ====
/-
  The last lines of both programs are the same: sum each nearest-distance array over all its entries from the zero
  word, divide each sum by the count word, add the two quotients.  Stated once, for any shapes, so that the two
  programs' results are this one function of their two arrays and only the arrays are left to compare.
-/
import Idealize.ShloMosaic.PureOps.Ideal.Laws

noncomputable section

namespace Cert.Chamfer

open Idealize.ShloMosaic

/-- `Σ zg / count + Σ zp / count`, with the programs' own words for zero and for the count. -/
def lossOf {s t : Shape} {axes : List (Fin s.rank)} (h1 : s.ReducesTo axes t) (h2 : 0 < t.numel)
    (zg zp : FVec Ideal s .f32) : FVec Ideal t .f32 :=
  addf
    (Host.divf (F := Ideal) (Host.reduceAdd (F := Ideal) zg (constant (F := Ideal) t .f32 0x00000000#32) h1 h2)
      (constant (F := Ideal) t .f32 0x47800000#32))
    (Host.divf (F := Ideal) (Host.reduceAdd (F := Ideal) zp (constant (F := Ideal) t .f32 0x00000000#32) h1 h2)
      (constant (F := Ideal) t .f32 0x47800000#32))

end Cert.Chamfer

end
-- ==== Proof.Result.lean ====
/-
  The idealized kernel's run, read: after the region the two arrays hold the nearest-distance functions
  (`nearG`, `nearP`), the lines after the region reshape them to matrices and take the loss of the pair, and the
  argument arrays end unchanged.
-/
import proofs.«157189_j26259430047859_2_alg».proof.Proof.Arrays
import proofs.«157189_j26259430047859_2_alg».proof.Proof.Loss
import Idealize.ShloMosaic.Lib.StableHlo.Run
import Idealize.ShloMosaic.Lib.Tactic

set_option maxRecDepth 16384

noncomputable section

namespace Cert.KernelIdeal.Result

open Cert.KernelIdeal Cert.KernelIdeal.Gen Idealize.ShloMosaic Idealize.ShloMosaic.TcCoe Idealize.SL.Sem
open Idealize.ShloMosaic.Pipeline (Dat)
open Cert.Chamfer Cert.KernelIdeal.Arrays

variable (m : (ℓ : Loc nD τ sig) → Buf (Elt Ideal) ℓ) (ρ : Dev nD → PrngReg)

/-- The kernel's result: the loss of its two arrays, each reshaped from `[4, 1, 8192]` to `[4, 8192]`. -/
def loss (c : Dev nD) : Buf (Elt Ideal) ((c : Thread nD τ).loc main_v7) :=
  lossOf reducesTo_S4x8192_S_d0_1 h_S_ (shapeCast S4x8192 (nearG m c) shapeCasts_S4x1x8192_S4x8192)
    (shapeCast S4x8192 (nearP m c) shapeCasts_S4x1x8192_S4x8192)

/-- After the region the per-ground-truth array is `nearG` and the per-prediction array is `nearP`, as the lines
    after the region find them. -/
theorem arrG (c : Dev nD) :
    Pipeline.withArrays (cfgs 0).spec c (V0 m c) (fun w => (dats m 0 c).arrAt w (cfgs 0).N) (Proc.devRef .tc main_v0_1) = nearG m c :=
  (Pipeline.withArrays_arr spec0 launch0.win.arr_inj c _ _ 3).trans (finalG m c)
theorem arrP (c : Dev nD) :
    Pipeline.withArrays (cfgs 0).spec c (V0 m c) (fun w => (dats m 0 c).arrAt w (cfgs 0).N) (Proc.devRef .tc main_v0_0) = nearP m c :=
  (Pipeline.withArrays_arr spec0 launch0.win.arr_inj c _ _ 2).trans (finalP m c)

/-- What the lines after the region leave in the result buffer. -/
theorem result_eq (c : Dev nD) :
    Pipeline.afterTail₀ cfgs (dats m) 0 (V0 m) [hostOps1] c main_v7 = loss m c := by
  unfold Pipeline.afterTail₀
  show StableHlo.after hostOps1 _ (Proc.devRef .tc main_v7) = _
  after_results
  rw [arrG, arrP]
  rfl

/-- THE RUN, READ: every weakly fair execution terminates with the result at `loss` and the arguments unchanged. -/
theorem run : θ_run defs (onTc (τ := τ) (main (F := Ideal))) ⟨m, fun _ => 0, ρ⟩ fun r => ∀ c : Dev nD,
      r.2.mem ((c.tc : Thread nD τ).loc main_v7) = loss m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v7 (Pipeline.mem_restRefs_of main_v7 rfl (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefRead.lean ====
/-
  The reference, read at an index.  Its pairwise array holds `clampSqrt (d2 b n m)` at `(b, n, m)`: the two
  squared norms are sums over the coordinate axis from the zero word, lifted to the pair by two broadcasts each, the
  inner product is the batched contraction over the coordinate axis, and the clamp and the root are pointwise.
  Its two nearest-point arrays are minimum-reductions of that array over the `n` axis and over the `m` axis, from
  the top element: the fold of `min` over the reduced coordinate.
-/
import proofs.«157189_j26259430047859_2_alg».proof.Proof.Gen.ReferenceIdeal.Read
import proofs.«157189_j26259430047859_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Chamfer

/-- The squared-norm row of the predictions reaches the pair `(b, n, m)` at `(b, k, n)`, -/
theorem idx_p (b : Fin 4) (n m : Fin 8192) (k : Fin 3) :
    idx_main_v1 (idx_main_v5 (idx_main_v7 (ix3 b n m))) k = ix3 b k n :=
  funext fun a => Fin.ext (by match a with | ⟨0, _⟩ => rfl | ⟨1, _⟩ => rfl | ⟨2, _⟩ => rfl)
/-- that of the ground truth at `(b, k, m)`, -/
theorem idx_g (b : Fin 4) (n m : Fin 8192) (k : Fin 3) :
    idx_main_v3 (idx_main_v6 (idx_main_v8 (ix3 b n m))) k = ix3 b k m :=
  funext fun a => Fin.ext (by match a with | ⟨0, _⟩ => rfl | ⟨1, _⟩ => rfl | ⟨2, _⟩ => rfl)
/-- and the contraction reads its operands at the same two places. -/
theorem idx_l (b : Fin 4) (n m : Fin 8192) (k : Fin 3) : lidx_main_v4 (ix3 b n m) k = ix3 b k n :=
  funext fun a => Fin.ext (by match a with | ⟨0, _⟩ => rfl | ⟨1, _⟩ => rfl | ⟨2, _⟩ => rfl)
theorem idx_r (b : Fin 4) (n m : Fin 8192) (k : Fin 3) : ridx_main_v4 (ix3 b n m) k = ix3 b k m :=
  funext fun a => Fin.ext (by match a with | ⟨0, _⟩ => rfl | ⟨1, _⟩ => rfl | ⟨2, _⟩ => rfl)

/-- The pairwise array at `(b, n, m)` is `clampSqrt (d2 b n m)`. -/
theorem pair_apply (x0 x1 : (⟨S4x3x8192, .f32⟩ : BufTy).Contents (Elt Ideal)) (b : Fin 4) (n m : Fin 8192) :
    val_main_v15 (F := Ideal) x0 x1 (ix3 b n m) = clampSqrt (d2 x0 x1 b n m) := by
  rw [val_main_v15_apply, val_main_v14_apply, val_main_v13_apply, val_main_cst_2_apply, val_main_v12_apply,
    val_main_v9_apply, val_main_v7_apply, val_main_v5_apply, val_main_v1_apply, val_main_v8_apply, val_main_v6_apply,
    val_main_v3_apply, val_main_v11_apply, val_main_v10_apply, val_main_cst_1_apply, val_main_v4_apply]
  simp only [val_main_v0_apply, val_main_v2_apply, val_main_cst_apply, val_main_cst_0_apply, idx_p, idx_g, idx_l, idx_r,
    Ideal.hostUnary_sqrt_def, Ideal.maximumf_def, Ideal.subf_def, Ideal.addf_def, Ideal.mulf_def, Ideal.ofBits_def,
    Ideal.ofBits_zero_f32, zero_add]
  rfl

/-- Inserting `n` on the reduced axis 1 of `(b, m)` gives `(b, n, m)`; -/
theorem lift1 (h : S4x8192x8192.Reduces [1] S4x8192) (b : Fin 4) (m n : Fin 8192) : h.lift (ix2 b m) n = ix3 b n m :=
  funext fun a => Fin.ext (by match a with | ⟨0, _⟩ => rfl | ⟨1, _⟩ => rfl | ⟨2, _⟩ => rfl)
/-- inserting `m` on the reduced axis 2 of `(b, n)` gives `(b, n, m)`. -/
theorem lift2 (h : S4x8192x8192.Reduces [2] S4x8192) (b : Fin 4) (n m : Fin 8192) : h.lift (ix2 b n) m = ix3 b n m :=
  funext fun a => Fin.ext (by match a with | ⟨0, _⟩ => rfl | ⟨1, _⟩ => rfl | ⟨2, _⟩ => rfl)

/-- For each ground-truth point the minimum over the predicted points of the clamped root distance. -/
theorem near_g (x0 x1 : (⟨S4x3x8192, .f32⟩ : BufTy).Contents (Elt Ideal)) (b : Fin 4) (m : Fin 8192) :
    val_main_v16 (F := Ideal) x0 x1 (ix2 b m) = nearR_g x0 x1 b m := by
  unfold val_main_v16 nearR_g
  rw [Host.reduce_eq_fold_single FloatOps.minimumf _ _ reducesTo_S4x8192x8192_S4x8192_d1 (by decide) h_S_]
  refine Finset.fold_congr fun n _ => ?_
  exact (congrArg (val_main_v15 (F := Ideal) x0 x1) (lift1 _ b m n)).trans (pair_apply x0 x1 b n m)

/-- For each predicted point the minimum over the ground-truth points. -/
theorem near_p (x0 x1 : (⟨S4x3x8192, .f32⟩ : BufTy).Contents (Elt Ideal)) (b : Fin 4) (n : Fin 8192) :
    val_main_v17 (F := Ideal) x0 x1 (ix2 b n) = nearR_p x0 x1 b n := by
  unfold val_main_v17 nearR_p
  rw [Host.reduce_eq_fold_single FloatOps.minimumf _ _ reducesTo_S4x8192x8192_S4x8192_d2 (by decide) h_S_]
  refine Finset.fold_congr fun m _ => ?_
  exact (congrArg (val_main_v15 (F := Ideal) x0 x1) (lift2 _ b n m)).trans (pair_apply x0 x1 b n m)

end Cert.ReferenceIdeal.RefValue

end
-- ==== Proof.LibMiddleUnit.lean ====
/-
  An array with a unit axis in the middle, `[a, 1, b]`, cast to the matrix `[a, b]` (a reshape that drops the unit
  axis), read at an index given by coordinates: the operand at `(i, 0, j)`.
-/
import Idealize.ShloMosaic.Lib.Pipeline.Value
import Idealize.ShloMosaic.Lib.ValueIdx

namespace Idealize.ShloMosaic.MiddleUnit

open Idealize.ShloMosaic Idealize.ShloMosaic.ValueIdx

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    simp)

end Idealize.ShloMosaic.MiddleUnit
-- ==== Proof.Bridge.lean ====
/-
  The two results are one number.  The kernel's arrays hold, entry by entry, the clamped root of a minimum of squared
  distances; the reference's hold the minimum of the clamped roots.  The clamped root is monotone and fixes the top
  element, so the two agree entry by entry (`nearK_g_eq`, `nearK_p_eq`), and the losses — one function of the two
  arrays — are equal.
-/
import proofs.«157189_j26259430047859_2_alg».proof.Proof.Result
import proofs.«157189_j26259430047859_2_alg».proof.Proof.RefRead
import proofs.«157189_j26259430047859_2_alg».proof.Proof.LibMiddleUnit

noncomputable section

namespace Cert.Bridge

open Idealize.ShloMosaic Idealize.ShloMosaic.TcCoe Idealize.SL.Sem Idealize.ShloMosaic.ValueIdx
open Cert.Chamfer Cert.KernelIdeal.Inv Cert.KernelIdeal.Arrays

variable (m : (ℓ : Loc Cert.KernelIdeal.nD Cert.KernelIdeal.τ Cert.KernelIdeal.sig) → Buf (Elt Ideal) ℓ)

/-- The kernel's per-ground-truth array, reshaped, is the reference's minimum over the predicted points. -/
theorem zg_eq (c : Dev Cert.KernelIdeal.nD) :
    shapeCast Cert.KernelIdeal.S4x8192 (nearG m c) Cert.KernelIdeal.Gen.shapeCasts_S4x1x8192_S4x8192
      = Cert.ReferenceIdeal.Read.val_main_v16 (F := Ideal) (P m c) (G m c) := by
  funext j
  obtain ⟨b, n, rfl⟩ : ∃ (b : Fin 4) (n : Fin 8192), j = ix2 b n := ⟨j 0, j 1, eq_ix2 j⟩
  rw [MiddleUnit.shapeCast_a1b_ab_apply, Cert.ReferenceIdeal.RefValue.near_g]
  exact nearK_g_eq (P m c) (G m c) b n

/-- The kernel's per-prediction array, reshaped, is the reference's minimum over the ground-truth points. -/
theorem zp_eq (c : Dev Cert.KernelIdeal.nD) :
    shapeCast Cert.KernelIdeal.S4x8192 (nearP m c) Cert.KernelIdeal.Gen.shapeCasts_S4x1x8192_S4x8192
      = Cert.ReferenceIdeal.Read.val_main_v17 (F := Ideal) (P m c) (G m c) := by
  funext j
  obtain ⟨b, n, rfl⟩ : ∃ (b : Fin 4) (n : Fin 8192), j = ix2 b n := ⟨j 0, j 1, eq_ix2 j⟩
  rw [MiddleUnit.shapeCast_a1b_ab_apply, Cert.ReferenceIdeal.RefValue.near_p]
  exact nearK_p_eq (P m c) (G m c) b n

/-- The reference's last stage is the loss of its two minimum arrays. -/
theorem ref_loss (x0 x1 : (⟨Cert.ReferenceIdeal.S4x3x8192, .f32⟩ : BufTy).Contents (Elt Ideal)) :
    Cert.ReferenceIdeal.Read.val_main_v22 (F := Ideal) x0 x1
      = lossOf Cert.ReferenceIdeal.Gen.reducesTo_S4x8192_S_d0_1 Cert.ReferenceIdeal.Gen.h_S_
          (Cert.ReferenceIdeal.Read.val_main_v16 (F := Ideal) x0 x1) (Cert.ReferenceIdeal.Read.val_main_v17 (F := Ideal) x0 x1) := rfl

/-- The kernel's result is the reference's last stage of the same argument arrays. -/
theorem loss_eq (c : Dev Cert.KernelIdeal.nD) :
    Cert.KernelIdeal.Result.loss m c
      = Cert.ReferenceIdeal.Read.val_main_v22 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  rw [ref_loss]
  unfold Cert.KernelIdeal.Result.loss
  rw [zg_eq, zp_eq]
  rfl

end Cert.Bridge

end
-- ==== Proof.lean ====
/-
  The chamfer loss, two ways.  With `d2 b n m = |p_n|² + |g_m|² − 2⟨p_n, g_m⟩` the squared distance of predicted point
  `n` and ground-truth point `m` of batch `b`, and `clampSqrt x = √(max x ε)`:

    the reference  computes `clampSqrt (d2 b n m)` for every pair, takes the minimum over `n` and the minimum over `m`,
                   sums each array, divides by the count and adds;
    the kernel     takes the minimum of `d2` itself — over `m` inside one tile of 256 predictions, over `n` as a
                   running minimum carried in a scratch row across the 32 tiles of a batch — applies `clampSqrt` once
                   to each minimum, and ends with the same sums, quotients and sum.

  Over the extended reals the two agree: `clampSqrt` is monotone and fixes the top element, so it moves through a
  finite minimum (Proof/Spec.lean); every other operation is the same on both sides, entry by entry.  No finiteness
  of the inputs is used.

  Proof/Payload.lean reads the kernel body's arithmetic at an index, Proof/Pieces.lean what each control case leaves
  in its buffers, Proof/Invariant.lean the running minimum by induction on the grid point, Proof/Arrays.lean the two
  arrays after the region, Proof/Result.lean the kernel's run; Proof/RefRead.lean reads the reference at an index,
  and Proof/Bridge.lean joins the two.  The frames of the two kernel programs and the reference's run are the
  generated ones.
-/
import proofs.«157189_j26259430047859_2_alg».proof.Defs
import proofs.«157189_j26259430047859_2_alg».proof.Proof.Gen.Kernel
import proofs.«157189_j26259430047859_2_alg».proof.Proof.Gen.Kernel.Skeleton
import proofs.«157189_j26259430047859_2_alg».proof.Proof.Gen.Kernel.Launch
import proofs.«157189_j26259430047859_2_alg».proof.Proof.Gen.Kernel.Points
import proofs.«157189_j26259430047859_2_alg».proof.Proof.Gen.Kernel.Frame
import proofs.«157189_j26259430047859_2_alg».proof.Proof.Gen.KernelIdeal
import proofs.«157189_j26259430047859_2_alg».proof.Proof.Gen.KernelIdeal.Skeleton
import proofs.«157189_j26259430047859_2_alg».proof.Proof.Gen.KernelIdeal.Launch
import proofs.«157189_j26259430047859_2_alg».proof.Proof.Gen.KernelIdeal.Points
import proofs.«157189_j26259430047859_2_alg».proof.Proof.Gen.KernelIdeal.Frame
import proofs.«157189_j26259430047859_2_alg».proof.Proof.Gen.ReferenceIdeal
import proofs.«157189_j26259430047859_2_alg».proof.Proof.Gen.ReferenceIdeal.Run
import proofs.«157189_j26259430047859_2_alg».proof.Proof.Gen.ReferenceIdeal.Read
import proofs.«157189_j26259430047859_2_alg».proof.Proof.Gen.Pre_finite_inputs
import proofs.«157189_j26259430047859_2_alg».proof.Proof.Bridge
import Idealize.ShloMosaic.Adequacy
import Idealize.ShloMosaic.Init

noncomputable section

namespace Cert.Proof

open Idealize.ShloMosaic Idealize.SL.Sem

/-- The word-level kernel and its idealization run, fault-free, with their arguments unchanged. -/
theorem frame_k : Cert.frame_Kernel := fun m ρ _ => Cert.Kernel.Gen.frame m ρ
theorem frame_ki : Cert.frame_KernelIdeal := fun m ρ _ => Cert.KernelIdeal.Gen.frame m ρ
/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end at one loss: the kernel's run ends at `loss` of its
    argument arrays, the reference's at its last stage of the same arrays, and the two are equal. -/
theorem algebraic : Cert.algebraic_KernelIdeal_ReferenceIdeal := by
  intro m ρ m' ρ' _ hagree
  refine ⟨fun c => Cert.KernelIdeal.Result.loss m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v22_eq _ _).trans (Cert.Bridge.loss_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
